-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn_part1 {F : FTy → Type} [FloatOps F] (main_arg1 : FVec F S33554432 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S33554432 .f32 := broadcastInDim S33554432 ![] bcast_S_S33554432 main_cst_6
  let main_v18 : IVec S33554432 1 := cmpf .ogt main_arg1 main_v17
  let main_c_7 : IVec S_ 1 := constantI S_ 1 1#1
  let main_v19 : IVec S_ 1 := (fun x v => Host.reduce IntOp.andi x v reducesTo_S33554432_S_d0 h_S_) main_v18 main_c_7
  let main_v20 : IVec S_ 1 := andi main_v16 main_v19
  let main_cst_8 : FVec F S_ .f32 := constant S_ .f32 0x3F800000#32
  let main_v21 : FVec F S33554432 .f32 := broadcastInDim S33554432 ![] bcast_S_S33554432 main_cst_8
  let main_v22 : IVec S33554432 1 := cmpf .olt main_arg1 main_v21
  let main_c_9 : IVec S_ 1 := constantI S_ 1 1#1
  let main_v23 : IVec S_ 1 := (fun x v => Host.reduce IntOp.andi x v reducesTo_S33554432_S_d0 h_S_) main_v22 main_c_9
  let main_v24 : IVec S_ 1 := andi main_v20 main_v23
  main_v24

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_cst_2 : FVec F S_ .f32 := constant S_ .f32 0x00000000#32
  let main_v9 : FVec F S33554432 .f32 := broadcastInDim S33554432 ![] bcast_S_S33554432 main_cst_2
  let main_v10 : IVec S33554432 1 := cmpf .ogt main_arg0 main_v9
  let main_c_3 : IVec S_ 1 := constantI S_ 1 1#1
  let main_v11 : IVec S_ 1 := (fun x v => Host.reduce IntOp.andi x v reducesTo_S33554432_S_d0 h_S_) main_v10 main_c_3
  let main_v12 : IVec S_ 1 := andi main_v8 main_v11
  let main_cst_4 : FVec F S_ .f32 := constant S_ .f32 0x3F800000#32
  let main_v13 : FVec F S33554432 .f32 := broadcastInDim S33554432 ![] bcast_S_S33554432 main_cst_4
  let main_v14 : IVec S33554432 1 := cmpf .olt main_arg0 main_v13
  let main_c_5 : IVec S_ 1 := constantI S_ 1 1#1
  let main_v15 : IVec S_ 1 := (fun x v => Host.reduce IntOp.andi x v reducesTo_S33554432_S_d0 h_S_) main_v14 main_c_5
  fn_part1 (F := F) main_arg1 main_v12 main_v15
-- ==== Kernel.lean ====
abbrev S33554432 : Shape := ⟨1, ![33554432]⟩
abbrev S262144x128 : Shape := ⟨2, ![262144, 128]⟩
abbrev S32x1x1 : Shape := ⟨3, ![32, 1, 1]⟩
abbrev S8192x128 : Shape := ⟨2, ![8192, 128]⟩
abbrev S1x1x1 : Shape := ⟨3, ![1, 1, 1]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S32 : Shape := ⟨1, ![32]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S32x1x1, .f32⟩
  | .hbm, ⟨5, _⟩ => ⟨S32, .f32⟩
  | .hbm, ⟨6, _⟩ => ⟨S_, .f32⟩
  | .hbm, ⟨7, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S33554432, .f32⟩
  | .hbm, ⟨16, _⟩ => ⟨S_, .f32⟩
  | .hbm, ⟨17, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.BlockSum.lean ====
/-
  The sum of one [8192, 128] block, as the kernel takes it: a sum along the 128 lanes of every row, the
  8192 row sums kept as a column, a sum down that column, and the single number re-shaped to [1, 1, 1].
  On the extended reals each lane sum is the sum over the lane coordinate and the column sum the sum over the
  row coordinate, so the number stored is the double sum  ∑ r < 8192, ∑ l < 128, v (r, l).
  No program is imported here: the shapes are the literal ones, the shape facts are hypotheses.
-/
import Idealize.ShloMosaic.Lib.ValueIdx
import Idealize.ShloMosaic.Lib.Pipeline.Value
import Idealize.ShloMosaic.PureOps.Ideal.Laws

noncomputable section

namespace Cert.Kl

open Idealize.ShloMosaic Idealize.ShloMosaic.ValueIdx

abbrev SBlk : Shape := ⟨2, ![8192, 128]⟩
abbrev SRows : Shape := ⟨1, ![8192]⟩
abbrev SCol : Shape := ⟨2, ![8192, 1]⟩
abbrev SUnit1 : Shape := ⟨1, ![1]⟩
abbrev SUnit2 : Shape := ⟨2, ![1, 1]⟩
abbrev SUnit3 : Shape := ⟨3, ![1, 1, 1]⟩

/-- The sum along the lanes, at row `r`: the sum over the lane coordinate. -/
theorem laneSum_apply (v : FVec Ideal SBlk .f32) (h : SBlk.Reduces [1] SRows) (hφ : FKind.Formats .f32)
    (hacc : (0x00000000#32 : BitVec 32) = FKind.add.neutral .f32 hφ) (r : Fin 8192) :
    multiReduction .add [1] SRows v 0x00000000#32 h hφ hacc (ix1 r) = ∑ l : Fin 128, v (ix2 r l) := by
  refine (Ideal.multiReduction_add_single v _ h hφ hacc (ix1 r)).trans ?_
  refine Finset.sum_congr rfl fun l _ => congrArg v ?_
  funext c; apply Fin.ext
  match c with
  | ⟨0, _⟩ => rfl
  | ⟨1, _⟩ => rfl

/-- A vector of 8192 numbers kept as an [8192, 1] column: entry (r, 0) is entry r. -/
theorem colCast_apply {α : Type} (w : SRows.Idx → α) (c : SRows.ShapeCasts SCol) (r : Fin 8192) (z : Fin 1) :
    shapeCast SCol w c (ix2 r z) = w (ix1 r) := by
  refine shapeCast_apply w c (ix2 r z) (ix1 r) ?_
  rw [Shape.rowMajor_val_one, Shape.rowMajor_val_two]
  show r.val = r.val * 1 + z.val
  have := z.isLt
  omega

/-- The sum down the column: the sum over the row coordinate. -/
theorem rowSum_apply (u : FVec Ideal SCol .f32) (h : SCol.Reduces [0] SUnit1) (hφ : FKind.Formats .f32)
    (hacc : (0x00000000#32 : BitVec 32) = FKind.add.neutral .f32 hφ) (z : Fin 1) :
    multiReduction .add [0] SUnit1 u 0x00000000#32 h hφ hacc (ix1 z) = ∑ r : Fin 8192, u (ix2 r z) := by
  refine (Ideal.multiReduction_add_single u _ h hφ hacc (ix1 z)).trans ?_
  refine Finset.sum_congr rfl fun r _ => congrArg u ?_
  funext c; apply Fin.ext
  match c with
  | ⟨0, _⟩ => rfl
  | ⟨1, _⟩ => rfl

/-- A re-shaping between two shapes of ONE element each reads the one element, at whatever index. -/
theorem shapeCast_single_apply {s t : Shape} {α : Type} (x : s.Idx → α) (h : s.ShapeCasts t) (hs : s.numel = 1)
    (j : t.Idx) (k : s.Idx) : shapeCast t x h j = x k := by
  refine shapeCast_apply x h j k ?_
  have h1 := (s.rowMajor k).isLt
  have h2 := (t.rowMajor j).isLt
  have h3 : t.numel = s.numel := h
  omega

theorem numel_unit1 : SUnit1.numel = 1 := by decide
theorem numel_unit2 : SUnit2.numel = 1 := by decide

/-- THE BLOCK SUM: the kernel's two reductions and three re-shapings of a block `v`, read at the one index of the
    [1, 1, 1] result, are the double sum of `v` over rows and lanes. -/
theorem blockSum_apply (v : FVec Ideal SBlk .f32)
    (h1 : SBlk.Reduces [1] SRows) (c1 : SRows.ShapeCasts SCol) (h2 : SCol.Reduces [0] SUnit1)
    (c2 : SUnit1.ShapeCasts SUnit2) (c3 : SUnit2.ShapeCasts SUnit3) (hφ : FKind.Formats .f32)
    (hacc : (0x00000000#32 : BitVec 32) = FKind.add.neutral .f32 hφ) (y : SUnit3.Idx) :
    shapeCast SUnit3 (shapeCast SUnit2 (multiReduction .add [0] SUnit1
        (shapeCast SCol (multiReduction .add [1] SRows v 0x00000000#32 h1 hφ hacc) c1) 0x00000000#32 h2 hφ hacc) c2) c3 y
      = ∑ r : Fin 8192, ∑ l : Fin 128, v (ix2 r l) := by
  refine (shapeCast_single_apply _ c3 numel_unit2 y (ix2 (0 : Fin 1) (0 : Fin 1))).trans ?_
  refine (shapeCast_single_apply _ c2 numel_unit1 _ (ix1 (0 : Fin 1))).trans ?_
  refine (rowSum_apply _ h2 hφ hacc 0).trans ?_
  refine Finset.sum_congr rfl fun r _ => ?_
  refine (colCast_apply _ c1 r 0).trans ?_
  exact laneSum_apply v h1 hφ hacc r

end Cert.Kl

end
-- ==== Proof.KlPoint.lean ====
/-
  One element of the binary Kullback–Leibler sum, in its two spellings, on the extended reals.

  For a probability `p` against a probability `q` the summand is
      p · log (p / q) + (1 − p) · log ((1 − p) / (1 − q))            (the quotient form)
  or, the logarithms taken apart,
      p · (log p − log q) + (1 − p) · (log (1 + (−p)) − log (1 + (−q)))   (the difference form).
  On the extended reals the two differ outside the open unit interval (a logarithm of a negative number
  and a difference of two infinities have conventional values there), and agree inside it: for
  `0 < p < 1` and `0 < q < 1` every quantity is a real number, every logarithm is taken of a positive
  real, and `log (a / b) = log a − log b`.
-/
import Idealize.ShloMosaic.PureOps.Ideal

noncomputable section

namespace Cert.Kl

open Idealize.ShloMosaic

/-- The single-precision pattern of `1.0`, as both programs spell the constant one. -/
abbrev one32 : EReal := Ideal.ofBits .f32 0x3F800000#32

/-- It denotes the real number one. -/
theorem one32_eq : one32 = ((1 : ℝ) : EReal) := by
  unfold one32
  simp [Ideal.ofBits, Ideal.ieee, -EReal.coe_mul]; norm_num

/-- The single-precision pattern of `0.0` denotes zero. -/
theorem zero32_eq : Ideal.ofBits .f32 0x00000000#32 = 0 := by
  simp [Ideal.ofBits, Ideal.ieee]

/-- The quotient form of one summand. -/
def klRatio (p q : EReal) : EReal :=
  p * Ideal.log (Ideal.div p q) + (one32 - p) * Ideal.log (Ideal.div (one32 - p) (one32 - q))

/-- The difference form of one summand. -/
def klDiff (p q : EReal) : EReal :=
  p * (Ideal.log p - Ideal.log q) + (one32 - p) * (Ideal.log1p (-p) - Ideal.log1p (-q))

/-- The logarithm of a positive real is the real logarithm. -/
theorem log_pos_coe {r : ℝ} (hr : 0 < r) : Ideal.log (r : EReal) = ((Real.log r : ℝ) : EReal) := by
  rw [Ideal.log_coe, if_neg (not_le.mpr hr)]

/-- Inside the open unit interval the two forms are one real number. -/
theorem klRatio_eq_klDiff {p q : EReal} (hp0 : 0 < p) (hp1 : p < 1) (hq0 : 0 < q) (hq1 : q < 1) :
    klRatio p q = klDiff p q := by
  lift p to ℝ using ⟨ne_top_of_lt hp1, ne_bot_of_gt hp0⟩
  lift q to ℝ using ⟨ne_top_of_lt hq1, ne_bot_of_gt hq0⟩
  have hp : 0 < p := by exact_mod_cast hp0
  have hp' : p < 1 := by exact_mod_cast hp1
  have hq : 0 < q := by exact_mod_cast hq0
  have hq' : q < 1 := by exact_mod_cast hq1
  have h1p : 0 < 1 - p := by linarith
  have h1q : 0 < 1 - q := by linarith
  unfold klRatio klDiff Ideal.log1p
  rw [one32_eq, Ideal.div_coe hq.ne', ← EReal.coe_sub, ← EReal.coe_sub, Ideal.div_coe h1q.ne',
    ← EReal.coe_mul, ← EReal.coe_mul, ← EReal.coe_neg, ← EReal.coe_neg, ← EReal.coe_one,
    ← EReal.coe_add, ← EReal.coe_add,
    log_pos_coe (mul_pos hp (one_div_pos.mpr hq)), log_pos_coe (mul_pos h1p (one_div_pos.mpr h1q)),
    log_pos_coe hp, log_pos_coe hq,
    log_pos_coe (show (0 : ℝ) < 1 + -p by linarith), log_pos_coe (show (0 : ℝ) < 1 + -q by linarith),
    ← EReal.coe_sub, ← EReal.coe_sub, ← EReal.coe_mul, ← EReal.coe_mul, ← EReal.coe_mul, ← EReal.coe_mul,
    ← EReal.coe_add, ← EReal.coe_add]
  congr 1
  rw [mul_one_div, mul_one_div, Real.log_div hp.ne' hq.ne', Real.log_div h1p.ne' h1q.ne',
    ← sub_eq_add_neg, ← sub_eq_add_neg]

end Cert.Kl

end
-- ==== Proof.SumTiles.lean ====
/-
  A sum over the 2^25 positions of a flat array, taken tile by tile: position
      (t · 8192 + r) · 128 + l      (t < 32, r < 8192, l < 128)
  runs over every position exactly once, so the sum over all positions is the triple sum over (t, r, l).
  Only commutativity and associativity of addition are used: the lemma holds in any commutative monoid,
  the extended reals among them.
-/
import Idealize.ShloMosaic.Lib.ValueIdx

noncomputable section

namespace Cert.Kl

open Idealize.ShloMosaic Idealize.ShloMosaic.ValueIdx

/-- The indices of a one-axis shape are its coordinates. -/
def idxEquiv1 {n : Nat} : (⟨1, ![n]⟩ : Shape).Idx ≃ Fin n where
  toFun j := j 0
  invFun a := ix1 a
  left_inv j := (eq_ix1 j).symm
  right_inv _ := rfl

/-- A sum over a one-axis shape's indices is the sum over the coordinate. -/
theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- Row-major position of (t, r, l) in a [T, R, C] box. -/
def tilePos {T R C : Nat} (t : Fin T) (r : Fin R) (l : Fin C) : Fin (T * R * C) :=
  finProdFinEquiv (finProdFinEquiv (t, r), l)

theorem tilePos_val {T R C : Nat} (t : Fin T) (r : Fin R) (l : Fin C) :
    (tilePos t r l).val = (t.val * R + r.val) * C + l.val := by
  simp only [tilePos, finProdFinEquiv_apply_val]
  ring

/-- A sum over `Fin (T · R · C)` is the triple sum over the box's coordinates. -/
theorem sum_tilePos {M : Type*} [AddCommMonoid M] (T R C : Nat) (f : Fin (T * R * C) → M) :
    ∑ k, f k = ∑ t : Fin T, ∑ r : Fin R, ∑ l : Fin C, f (tilePos t r l) := by
  rw [← Equiv.sum_comp finProdFinEquiv f, Fintype.sum_prod_type,
    ← Equiv.sum_comp finProdFinEquiv (fun tr => ∑ l, f (finProdFinEquiv (tr, l))), Fintype.sum_prod_type]
  rfl

/-- The flat position of lane `l` of row `r` of tile `t`. -/
def flat (t : Fin 32) (r : Fin 8192) (l : Fin 128) : Fin 33554432 :=
  ⟨(t.val * 8192 + r.val) * 128 + l.val, by have := t.isLt; have := r.isLt; have := l.isLt; omega⟩

/-- THE TILING OF THE SUM: over the 2^25 indices of a flat array, tile by tile. -/
theorem sum_flat {M : Type*} [AddCommMonoid M] (g : (⟨1, ![33554432]⟩ : Shape).Idx → M) :
    ∑ j, g j = ∑ t : Fin 32, ∑ r : Fin 8192, ∑ l : Fin 128, g (ix1 (flat t r l)) := by
  rw [sum_idx1]
  refine (sum_tilePos 32 8192 128 (fun a : Fin (32 * 8192 * 128) => g (ix1 (n := 33554432) a))).trans ?_
  refine Finset.sum_congr rfl fun t _ => Finset.sum_congr rfl fun r _ => Finset.sum_congr rfl fun l _ => ?_
  refine congrArg (fun a : Fin 33554432 => g (ix1 a)) (Fin.ext ?_)
  exact tilePos_val t r l

end Cert.Kl

end
-- ==== Proof.Spec.lean ====
/-
  The number both programs compute, as one function of the two flat argument arrays: the binary
  Kullback–Leibler summand (quotient form) of every element, summed tile by tile — 32 tiles of 8192 rows of
  128 lanes, in the order the kernel's grid visits them — onto zero. And the bridge to the difference form:
  when every element lies strictly between zero and one, the sum of the difference form over all 2^25 elements
  is that number (element by element the two forms agree there, and re-tiling a sum needs only that addition
  commutes and associates).
-/
import proofs.«157019_j21423296872469_2_alg».proof.Proof.KlPoint
import proofs.«157019_j21423296872469_2_alg».proof.Proof.SumTiles

noncomputable section

namespace Cert.Kl

open Idealize.ShloMosaic Idealize.ShloMosaic.ValueIdx

abbrev SFlat : Shape := ⟨1, ![33554432]⟩
abbrev SScalar : Shape := ⟨0, ![]⟩

/-- The sum of the summands of tile `t`: rows 8192·t … 8192·t + 8191 of the arrays viewed [262144, 128]. -/
def blockKl (x0 x1 : SFlat.Idx → EReal) (t : Fin 32) : EReal :=
  ∑ r : Fin 8192, ∑ l : Fin 128, klRatio (x0 (ix1 (flat t r l))) (x1 (ix1 (flat t r l)))

/-- The result: the 32 tile sums added onto zero. -/
def klTotal (x0 x1 : SFlat.Idx → EReal) : SScalar.Idx → EReal :=
  fun _ => 0 + ∑ t : Fin 32, blockKl x0 x1 t

/-- The difference form summed over every element, onto zero, is the same number on the open unit interval. -/
theorem sum_klDiff_eq (x0 x1 : SFlat.Idx → EReal)
    (hdom : ∀ j, (0 < x0 j ∧ x0 j < 1) ∧ (0 < x1 j ∧ x1 j < 1)) (i : SScalar.Idx) :
    (0 : EReal) + ∑ j, klDiff (x0 j) (x1 j) = klTotal x0 x1 i := by
  unfold klTotal blockKl
  rw [sum_flat]
  refine congrArg (fun s : EReal => 0 + s) (Finset.sum_congr rfl fun t _ => Finset.sum_congr rfl fun r _ =>
    Finset.sum_congr rfl fun l _ => ?_)
  obtain ⟨⟨a, b⟩, ⟨c, d⟩⟩ := hdom (ix1 (flat t r l))
  exact (klRatio_eq_klDiff a b c d).symm

end Cert.Kl

end
-- ==== Proof.KernelValue.lean ====
/-
  What the kernel's program computes, read off its run.

  The program views each flat argument as a [262144, 128] array, visits 32 grid points, and at point `t` loads rows
  8192·t … 8192·t + 8191 of both views, forms on every element the summand
      p · log (p / q) + (1 − p) · log ((1 − p) / (1 − q)),
  sums the block (along the lanes, then down the rows) and stores the one number as entry (t, 0, 0) of a
  [32, 1, 1] array; afterwards the host views that array as 32 numbers and sums them onto zero.

  Read here, in order: the number a point stores is the double sum of the summand over its two blocks (`pay_apply`);
  the views are the flat arguments at row-major positions, so element (r, l) of the block at point `t` is the flat
  array's element (8192·t + r)·128 + l (`iblk0_apply`, `iblk1_apply`); hence each point writes back its block of ONE
  function of the arguments, the tile sums (`flushed_eq`); the 32 one-element blocks tile the output array, which
  therefore ends as that function (`final`); and the host's sum of it is the 32 tile sums added onto zero
  (`tail_eq`), which is the specification `klTotal` (`run`). Nothing here needs the arguments to be finite or in
  any range: only the shape of the sum is used.
-/
import proofs.«157019_j21423296872469_2_alg».proof.Proof.Gen.KernelIdeal.Frame
import proofs.«157019_j21423296872469_2_alg».proof.Proof.BlockSum
import proofs.«157019_j21423296872469_2_alg».proof.Proof.Spec
import Idealize.ShloMosaic.Lib.Pipeline.Value
import Idealize.ShloMosaic.Lib.StableHlo.Run
import Idealize.ShloMosaic.Lib.Tactic

noncomputable section

namespace Cert.KernelIdeal.KlValue

open Cert.KernelIdeal Cert.KernelIdeal.Gen Idealize.ShloMosaic Idealize.ShloMosaic.TcCoe Idealize.SL.Sem
open Idealize.ShloMosaic.ValueIdx
open Idealize.ShloMosaic.Pipeline (Dat)

/-- What the body stores at a point: the double sum, over rows and lanes, of the summand of its two loaded blocks. -/
theorem pay_apply (x0 x1 : Vec Ideal S8192x128 .f32) (y : S1x1x1.Idx) :
    k0_pay1 (F := Ideal) x0 x1 y
      = ∑ r : Fin 8192, ∑ l : Fin 128, Cert.Kl.klRatio (x0 (ix2 r l)) (x1 (ix2 r l)) := by
  unfold k0_pay1
  dsimp only
  rw [shapeCast_self x0, shapeCast_self x1]
  refine (Cert.Kl.blockSum_apply _ _ _ _ _ _ _ _ y).trans ?_
  exact Finset.sum_congr rfl fun r _ => Finset.sum_congr rfl fun l _ => rfl

variable (m : (ℓ : Loc nD τ sig) → Buf (Elt Ideal) ℓ) (ρ : Dev nD → PrngReg)

/-- The first argument viewed [262144, 128]. -/
theorem V_main_v0 (c : Dev nD) :
    (V m c main_v0 : S262144x128.Idx → EReal)
      = shapeCast S262144x128 (m ((c : Thread nD τ).loc main_arg0) : S33554432.Idx → EReal) shapeCasts_S33554432_S262144x128 := by
  show StableHlo.after hostOps0 (fun b => m (c, b)) (Proc.devRef .tc main_v0) = _
  after_results
  rfl

/-- The second argument viewed [262144, 128]. -/
theorem V_main_v1 (c : Dev nD) :
    (V m c main_v1 : S262144x128.Idx → EReal)
      = shapeCast S262144x128 (m ((c : Thread nD τ).loc main_arg1) : S33554432.Idx → EReal) shapeCasts_S33554432_S262144x128 := by
  show StableHlo.after hostOps0 (fun b => m (c, b)) (Proc.devRef .tc main_v1) = _
  after_results
  rfl

/-- The grid has 32 points; a point as a tile number. -/
def tile (t : Fin cfg0.N) : Fin 32 := ⟨t.val, by have h := t.isLt; have e : cfg0.N = 32 := N_0; omega⟩

/-- The printed index maps over the grid: every window's block index on its leading axis is the point, zero on the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- An entry of the [262144, 128] view of a flat array is the flat array's entry at the row-major position. -/
theorem view_apply (a : S33554432.Idx → EReal) (t : Fin 32) (r : Fin 8192) (l : Fin 128) (k : S262144x128.Idx)
    (hk0 : (k 0).val = t.val * 8192 + r.val) (hk1 : (k 1).val = l.val) :
    shapeCast S262144x128 a shapeCasts_S33554432_S262144x128 k = a (ix1 (Cert.Kl.flat t r l)) := by
  refine shapeCast_apply a _ k (ix1 (Cert.Kl.flat t r l)) ?_
  rw [Shape.rowMajor_val_one, Shape.rowMajor_val_two, hk0, hk1]
  rfl

/-- Row `r`, lane `l` of the first window's block at point `t` is the first argument's element at the flat position. -/
theorem iblk0_apply (c : Dev nD) (t : Fin cfg0.N) (r : Fin 8192) (l : Fin 128) :
    (iblk m c 0 t : S8192x128.Idx → EReal) (ix2 r l)
      = (m ((c : Thread nD τ).loc main_arg0) : S33554432.Idx → EReal) (ix1 (Cert.Kl.flat (tile t) r l)) := by
  obtain ⟨e0, e1, -⟩ := idx_facts t
  unfold iblk
  rw [View.read_apply]
  show (V m c main_v0 : S262144x128.Idx → EReal) _ = _
  rw [V_main_v0]
  refine view_apply _ (tile t) r l _ ?_ ?_
  · show win0_0.index t (0 : Fin 2) * 8192 + 1 * r.val = t.val * 8192 + r.val
    rw [e0]; omega
  · show win0_0.index t (1 : Fin 2) * 128 + 1 * l.val = l.val
    rw [e1]; omega

/-- The same of the second window and the second argument. -/
theorem iblk1_apply (c : Dev nD) (t : Fin cfg0.N) (r : Fin 8192) (l : Fin 128) :
    (iblk m c 1 t : S8192x128.Idx → EReal) (ix2 r l)
      = (m ((c : Thread nD τ).loc main_arg1) : S33554432.Idx → EReal) (ix1 (Cert.Kl.flat (tile t) r l)) := by
  obtain ⟨-, -, e0, e1, -⟩ := idx_facts t
  unfold iblk
  rw [View.read_apply]
  show (V m c main_v1 : S262144x128.Idx → EReal) _ = _
  rw [V_main_v1]
  refine view_apply _ (tile t) r l _ ?_ ?_
  · show win0_1.index t (0 : Fin 2) * 8192 + 1 * r.val = t.val * 8192 + r.val
    rw [e0]; omega
  · show win0_1.index t (1 : Fin 2) * 128 + 1 * l.val = l.val
    rw [e1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The kernel's output array as one function of the two flat arguments: entry (t, 0, 0) is the sum of tile `t`. -/
def partials (a0 a1 : S33554432.Idx → EReal) : S32x1x1.Idx → EReal :=
  fun i => Cert.Kl.blockKl a0 a1 ⟨(i 0).val, (i 0).isLt⟩

/-- What point `t` writes back is block `t` of `partials`. -/
theorem flushed_eq (c : Dev nD) (t : Fin cfg0.N) :
    (dats m 0 c).flushed 2 t = ((cfg0.win 2).blk t).view.read (Elt Ideal)
      (partials (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S8192x128) hz2]
  obtain ⟨-, -, -, -, e0, -⟩ := idx_facts t
  funext y
  show k0_pay1 (F := Ideal) (iblk m c 0 t) (iblk m c 1 t) y
    = partials (m ((c : Thread nD τ).loc main_arg0)) (m ((c : Thread nD τ).loc main_arg1)) (((cfg0.win 2).blk t).view.emb y)
  refine (pay_apply _ _ y).trans ?_
  unfold partials Cert.Kl.blockKl
  have ht : (⟨((((cfg0.win 2).blk t).view.emb y) 0).val, ((((cfg0.win 2).blk t).view.emb y) 0).isLt⟩ : Fin 32) = tile t :=
    Fin.ext (by
      show win0_2.index t (0 : Fin 3) * 1 + 1 * (y 0).val = t.val
      have hy : (y 0).val < 1 := (y 0).isLt
      rw [e0]; omega)
  rw [ht]
  exact Finset.sum_congr rfl fun r _ => Finset.sum_congr rfl fun l _ => by rw [iblk0_apply, iblk1_apply]

/-- An index of the output array is in point `t`'s block iff each coordinate is in the block's range on its axis. -/
theorem mem_blk (t : Fin cfg0.N) (i : S32x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- The output array after the run: the 32 blocks tile it, so it is `partials`. -/
theorem final (c : Dev nD) : (dats m 0 c).arrAt 2 cfg0.N
    = partials (m ((c : Thread nD τ).loc main_arg0)) (m ((c : Thread nD τ).loc main_arg1)) :=
  (dats m 0 c).arrAt_eq_of_cover 2 _ (fun t _ => flushed_eq m c t) (fun i => by
    have hi0 : (i 0).val < 32 := (i 0).isLt
    have hi1 : (i 1).val < 1 := (i 1).isLt
    have hi2 : (i 2).val < 1 := (i 2).isLt
    have hN : cfg0.N = 32 := N_0
    refine ⟨⟨(i 0).val, by omega⟩, flush0_2 _, ?_⟩
    rw [mem_blk]
    obtain ⟨-, -, -, -, e0, e1, e2⟩ := idx_facts ⟨(i 0).val, by omega⟩
    intro a
    match a with
    | ⟨0, _⟩ =>
      show win0_2.index _ (0 : Fin 3) * 1 ≤ (i 0).val ∧ (i 0).val < win0_2.index _ (0 : Fin 3) * 1 + 1
      rw [e0]; constructor <;> simp only <;> omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 1 ≤ (i 2).val ∧ (i 2).val < win0_2.index _ (2 : Fin 3) * 1 + 1
      rw [e2]; omega)

/-- Entry `t` of the output array viewed as a vector of 32 numbers is the sum of tile `t`. -/
theorem partials_flat_apply (a0 a1 : S33554432.Idx → EReal) (t : Fin 32) :
    shapeCast S32 (partials a0 a1) shapeCasts_S32x1x1_S32 (ix1 t) = Cert.Kl.blockKl a0 a1 t := by
  refine (shapeCast_apply (partials a0 a1) shapeCasts_S32x1x1_S32 (ix1 t) (ix3 t (0 : Fin 1) (0 : Fin 1)) ?_).trans rfl
  rw [Shape.rowMajor_val_one, Shape.rowMajor_val_three]
  show (t.val * 1 + 0) * 1 + 0 = t.val
  omega

/-- The program's result: the host's sum, onto zero, of the 32 numbers the region left — `klTotal` of the arguments. -/
theorem tail_eq (c : Dev nD) :
    Pipeline.afterTail₀ cfgs (dats m) 0 (V0 m) [hostOps1] c main_v4
      = Cert.Kl.klTotal (m ((c : Thread nD τ).loc main_arg0)) (m ((c : Thread nD τ).loc main_arg1)) := by
  unfold Pipeline.afterTail₀
  show StableHlo.after hostOps1 _ (Proc.devRef .tc main_v4) = _
  after_results
  show Host.reduceAdd (F := Ideal) (shapeCast S32
      (Pipeline.withArrays (cfgs 0).spec c (V0 m c) (fun w => (dats m 0 c).arrAt w (cfgs 0).N) (Proc.devRef .tc main_v2))
      shapeCasts_S32x1x1_S32) (constant S_ .f32 0x00000000#32) reducesTo_S32_S_d0 h_S_ = _
  have hw : Pipeline.withArrays (cfgs 0).spec c (V0 m c) (fun w => (dats m 0 c).arrAt w (cfgs 0).N) (Proc.devRef .tc main_v2)
      = partials (m ((c : Thread nD τ).loc main_arg0)) (m ((c : Thread nD τ).loc main_arg1)) :=
    (Pipeline.withArrays_arr spec0 launch0.win.arr_inj c _ _ 2).trans (final m c)
  rw [hw]
  generalize m ((c : Thread nD τ).loc main_arg0) = a0
  generalize m ((c : Thread nD τ).loc main_arg1) = a1
  funext i
  simp only [Host.reduceAdd, Ideal.hostReduceAdd_def]
  refine (Ideal.hostReduceAdd_total reducesTo_S32_S_d0 (fun b => b.elim0) _ _ i).trans ?_
  unfold Cert.Kl.klTotal
  refine congrArg₂ (· + ·) Cert.Kl.zero32_eq ?_
  rw [Cert.Kl.sum_idx1]
  exact Finset.sum_congr rfl fun t _ => partials_flat_apply a0 a1 t

/-- THE RUN, READ: every weakly fair execution of the kernel's program ends with its result at `klTotal` of the
    arguments, the arguments unchanged. -/
theorem run : θ_run defs (onTc (τ := τ) (main (F := Ideal))) ⟨m, fun _ => 0, ρ⟩ fun r => ∀ c : Dev nD,
      r.2.mem ((c : Thread nD τ).loc main_v4)
        = Cert.Kl.klTotal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KlValue

end
-- ==== Proof.RefValue.lean ====
/-
  The reference's result is the specification. Its run ends with the sum, onto zero, over all 2^25 elements of
      p · (log p − log q) + (1 − p) · (log (1 + (−p)) − log (1 + (−q)))
  (the difference form of the summand); on arrays whose elements lie strictly between zero and one that is
  `klTotal`.
-/
import proofs.«157019_j21423296872469_2_alg».proof.Proof.Gen.ReferenceIdeal.Read
import proofs.«157019_j21423296872469_2_alg».proof.Proof.Spec

noncomputable section

namespace Cert.ReferenceIdeal.RefValue

open Cert.ReferenceIdeal Cert.ReferenceIdeal.Gen Idealize.ShloMosaic Idealize.ShloMosaic.ValueIdx

/-- One element of the array the reference sums is the difference form of the summand. -/
theorem summand_apply (x0 x1 : (⟨S33554432, .f32⟩ : BufTy).Contents (Elt Ideal)) (j : S33554432.Idx) :
    Read.val_main_v12 (F := Ideal) x0 x1 j = Cert.Kl.klDiff (x0 j) (x1 j) := rfl

/-- The reference's result, on arrays inside the open unit interval, is `klTotal`. -/
theorem result_eq (x0 x1 : (⟨S33554432, .f32⟩ : BufTy).Contents (Elt Ideal))
    (hdom : ∀ j, (0 < x0 j ∧ x0 j < 1) ∧ (0 < x1 j ∧ x1 j < 1)) :
    Read.val_main_v13 (F := Ideal) x0 x1 = Cert.Kl.klTotal x0 x1 := by
  funext i
  rw [Read.val_main_v13_apply]
  refine Eq.trans ?_ (Cert.Kl.sum_klDiff_eq x0 x1 hdom i)
  refine congrArg₂ (· + ·) Cert.Kl.zero32_eq (Finset.sum_congr rfl fun j _ => summand_apply x0 x1 j)

end Cert.ReferenceIdeal.RefValue

end
-- ==== Proof.Domain.lean ====
/-
  What the precondition says of the two argument arrays, element by element: besides finiteness it asks
  `input > 0`, `input < 1`, `target > 0`, `target < 1` of every element (each a comparison of the whole array with
  a constant, reduced by `and`), so every element of either array is a real number strictly between zero and one
  — the domain on which every logarithm the reference takes is the logarithm of a positive real.
-/
import proofs.«157019_j21423296872469_2_alg».proof.Proof.Gen.Pre_finite_inputs
import proofs.«157019_j21423296872469_2_alg».proof.Proof.KlPoint
import Idealize.ShloMosaic.Lib.ReduceAll
import Idealize.ShloMosaic.Lib.ValueIdx

noncomputable section

namespace Cert.Kl

open Idealize.ShloMosaic Idealize.ShloMosaic.ValueIdx Cert.Pre_finite_inputs

instance : Subsingleton Cert.Pre_finite_inputs.S_.Idx := ⟨fun _ _ => funext fun d => d.elim0⟩

/-- A comparison "greater than" that came out true. -/
theorem lt_of_cmp_ogt {x y : EReal} (h : Ideal.cmp .ogt x y = 1#1) : y < x := by
  change BitVec.ofBool (decide (y < x)) = 1#1 at h
  by_contra hn
  rw [decide_eq_false hn] at h
  exact absurd h (by decide)

/-- A comparison "less than" that came out true. -/
theorem lt_of_cmp_olt {x y : EReal} (h : Ideal.cmp .olt x y = 1#1) : x < y := by
  change BitVec.ofBool (decide (x < y)) = 1#1 at h
  by_contra hn
  rw [decide_eq_false hn] at h
  exact absurd h (by decide)

/-- Under the precondition every element of both arrays lies strictly between zero and one. -/
theorem unit_interval_of_pre (x0 x1 : FVec Ideal S33554432 .f32)
    (h : Cert.Pre_finite_inputs.fn (F := Ideal) x0 x1 = fun _ => 1#1) (j : S33554432.Idx) :
    (0 < x0 j ∧ x0 j < 1) ∧ (0 < x1 j ∧ x1 j < 1) := by
  have e := congrFun h ix0
  dsimp only [fn, fn_part1] at e
  obtain ⟨e5, h23⟩ := IntOp.andi_eq_one.1 e
  obtain ⟨e4, h19⟩ := IntOp.andi_eq_one.1 e5
  obtain ⟨e3, h15⟩ := IntOp.andi_eq_one.1 e4
  obtain ⟨-, h11⟩ := IntOp.andi_eq_one.1 e3
  have a0 := Host.reduce_andi_all _ _ _ _ ix0 h11 j
  have a1 := Host.reduce_andi_all _ _ _ _ ix0 h15 j
  have b0 := Host.reduce_andi_all _ _ _ _ ix0 h19 j
  have b1 := Host.reduce_andi_all _ _ _ _ ix0 h23 j
  have a0' : Ideal.ofBits .f32 0x00000000#32 < x0 j := lt_of_cmp_ogt a0
  have a1' : x0 j < Ideal.ofBits .f32 0x3F800000#32 := lt_of_cmp_olt a1
  have b0' : Ideal.ofBits .f32 0x00000000#32 < x1 j := lt_of_cmp_ogt b0
  have b1' : x1 j < Ideal.ofBits .f32 0x3F800000#32 := lt_of_cmp_olt b1
  rw [zero32_eq] at a0' b0'
  have one1 : Ideal.ofBits .f32 0x3F800000#32 = (1 : EReal) := one32_eq.trans EReal.coe_one
  rw [one1] at a1' b1'
  exact ⟨⟨a0', a1'⟩, ⟨b0', b1'⟩⟩

end Cert.Kl

end
-- ==== Proof.lean ====
/-
  The kernel computes the binary Kullback–Leibler divergence of two arrays of 2^25 probabilities,
      ∑ p · log (p / q) + (1 − p) · log ((1 − p) / (1 − q)),
  tile by tile (32 tiles of 8192 × 128 elements, one partial sum per grid point, the 32 partial sums added on
  the host); the reference computes
      ∑ p · (log p − log q) + (1 − p) · (log (1 + (−p)) − log (1 + (−q)))
  in one sum. On the extended reals the two summands agree exactly where the reference's four logarithms are
  taken of positive reals, that is for 0 < p < 1 and 0 < q < 1, which the precondition states of every element;
  outside that domain they differ (at p = q = −1 the first is 0 and the second +∞). The rest is the shape of the
  sum: the tiles partition the 2^25 positions, and addition on the extended reals commutes and associates.

  The modules: KlPoint (the two summands, equal on the open unit interval), SumTiles (a sum over 2^25 positions
  taken tile by tile), Spec (the result as one function `klTotal` of the two arrays, and the reference's sum
  brought to it), BlockSum (the kernel's two reductions of a block as a double sum), Domain (the precondition
  read element by element), KernelValue (the kernel's run ends at `klTotal`), RefValue (the reference's run
  ends at `klTotal` on the domain). Below: the three frames, the (empty) idealization ledger, and the equality
  of results.
-/
import proofs.«157019_j21423296872469_2_alg».proof.Defs
import proofs.«157019_j21423296872469_2_alg».proof.Proof.Gen.Kernel
import proofs.«157019_j21423296872469_2_alg».proof.Proof.Gen.Kernel.Skeleton
import proofs.«157019_j21423296872469_2_alg».proof.Proof.Gen.Kernel.Launch
import proofs.«157019_j21423296872469_2_alg».proof.Proof.Gen.Kernel.Points
import proofs.«157019_j21423296872469_2_alg».proof.Proof.Gen.Kernel.Frame
import proofs.«157019_j21423296872469_2_alg».proof.Proof.Gen.KernelIdeal
import proofs.«157019_j21423296872469_2_alg».proof.Proof.Gen.KernelIdeal.Skeleton
import proofs.«157019_j21423296872469_2_alg».proof.Proof.Gen.KernelIdeal.Launch
import proofs.«157019_j21423296872469_2_alg».proof.Proof.Gen.KernelIdeal.Points
import proofs.«157019_j21423296872469_2_alg».proof.Proof.Gen.KernelIdeal.Frame
import proofs.«157019_j21423296872469_2_alg».proof.Proof.Gen.ReferenceIdeal
import proofs.«157019_j21423296872469_2_alg».proof.Proof.Gen.ReferenceIdeal.Run
import proofs.«157019_j21423296872469_2_alg».proof.Proof.Gen.ReferenceIdeal.Read
import proofs.«157019_j21423296872469_2_alg».proof.Proof.Gen.Pre_finite_inputs
import proofs.«157019_j21423296872469_2_alg».proof.Proof.KernelValue
import proofs.«157019_j21423296872469_2_alg».proof.Proof.RefValue
import proofs.«157019_j21423296872469_2_alg».proof.Proof.Domain
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `klTotal` of the arguments: the kernel's on any arrays, the reference's because the
    precondition puts every element strictly between zero and one, where the two forms of the summand agree. -/
theorem algebraic : Cert.algebraic_KernelIdeal_ReferenceIdeal := by
  intro m ρ m' ρ' hpre hagree
  refine ⟨fun c => Cert.Kl.klTotal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KlValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact Cert.ReferenceIdeal.RefValue.result_eq _ _ (fun j => Cert.Kl.unit_interval_of_pre _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
